-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x2048x128 .f32) (main_arg1 : FVec F S8x2048x2048 .f32) (main_arg2 : FVec F S128x128 .f32) (main_arg3 : FVec F S128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S8x2048x1 : Shape := ⟨3, ![8, 2048, 1]⟩
abbrev S1x1024x2048 : Shape := ⟨3, ![1, 1024, 2048]⟩
abbrev S1x1024x128 : Shape := ⟨3, ![1, 1024, 128]⟩
abbrev S1x1024x1 : Shape := ⟨3, ![1, 1024, 1]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩
abbrev S1x2048x128 : Shape := ⟨3, ![1, 2048, 128]⟩
abbrev S2048x128 : Shape := ⟨2, ![2048, 128]⟩
abbrev S1x128 : Shape := ⟨2, ![1, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S8x2048x1, .f32⟩
  | .hbm, ⟨5, _⟩ => ⟨S8x2048x128, .bf16⟩
  | .hbm, ⟨6, _⟩ => ⟨S128x128, .f32⟩
  | .hbm, ⟨7, _⟩ => ⟨S128x128, .bf16⟩
  | .hbm, ⟨8, _⟩ => ⟨S8x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x128, .bf16⟩
  | .local _ .vmem, ⟨7, _⟩ => ⟨S1x1024x128, .bf16⟩
  | .local _ .vmem, ⟨8, _⟩ => ⟨S1x1024x2048, .f32⟩
  | .local _ .vmem, ⟨9, _⟩ => ⟨S1x1024x2048, .f32⟩
  | .local _ .vmem, ⟨10, _⟩ => ⟨S1x2048x128, .bf16⟩
  | .local _ .vmem, ⟨11, _⟩ => ⟨S1x2048x128, .bf16⟩
  | .local _ .vmem, ⟨12, _⟩ => ⟨S1x1024x1, .f32⟩
  | .local _ .vmem, ⟨13, _⟩ => ⟨S1x1024x1, .f32⟩
  | .local _ .vmem, ⟨14, _⟩ => ⟨S128x128, .bf16⟩
  | .local _ .vmem, ⟨15, _⟩ => ⟨S128, .f32⟩
  | .local _ .vmem, ⟨16, _⟩ => ⟨S1x1024x128, .f32⟩
  | .local _ .vmem, ⟨17, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 3 → Nat :=
  let c0_8 : Index := 0#32
  let arg1 : BitVec 32 := BitVec.ofNat 32 (i 1).val
  let c1024_i32 : BitVec 32 := 1024#32
  let v0 : BitVec 32 := Scalar.muli arg1 c1024_i32
  let v1 : BitVec 32 := v0
  let v10 : Index := Scalar.indexCast v1
  let c0_9 : Index := 0#32
  ![0, v10.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1024x1_S1024x128 : S1024x1.Broadcasts S1024x128
  bitsLt_bf16_f32 : FTy.bits .bf16 < FTy.bits .f32
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S128x128_S128x128_1_0 : S128x128.Transposes [1, 0] S128x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x2048x128.size a
  hwx0_1 : ∀ i : grid0.Coords, EltTy.bits .f32 = 32 ∨ (Rect.block (s := S8x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x2048x1.size a
  hwx0_2 : ∀ i : grid0.Coords, EltTy.bits .f32 = 32 ∨ (Rect.block (s := S8x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .bf16 = 32 ∨ (Rect.block (s := S8x2048x128) S1x1024x128.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1x1024x128.size a ≤ S1x2048x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S8x2048x2048.size a
  hwx1_0 : ∀ i : grid1.Coords, EltTy.bits .f32 = 32 ∨ (Rect.block (s := S8x2048x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .bf16 = 32 ∨ (Rect.block (s := S8x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S8x2048x1.size a
  hwx1_2 : ∀ i : grid1.Coords, EltTy.bits .f32 = 32 ∨ (Rect.block (s := S8x2048x1) S1x1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x128.size a ≤ S8x2048x128.size a
  hwx1_5 : ∀ i : grid1.Coords, EltTy.bits .f32 = 32 ∨ (Rect.block (s := S8x2048x128) S1x1024x128.size (cc1_transform_5 i) (hinb1_5 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S1x1x128 : Shape := ⟨3, ![1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S2048x2048, .i32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i1⟩
  | .hbm, ⟨10, _⟩ => ⟨S2048x2048, .f32⟩
  | .hbm, ⟨11, _⟩ => ⟨S1x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .i1⟩
  | .hbm, ⟨23, _⟩ => ⟨S_, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x128, .f32⟩
  | .hbm, ⟨34, _⟩ => ⟨S8x2048x128, .f32⟩
  | .hbm, ⟨35, _⟩ => ⟨S1x1x128, .f32⟩
  | .hbm, ⟨36, _⟩ => ⟨S8x2048x128, .f32⟩
  | .hbm, ⟨37, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  dot_S8x2048x2048_S8x2048x128_S8x2048x128_2_1_1_2_0_0_wf : DotDims.WF S8x2048x2048 S8x2048x128 S8x2048x128 [2] [1] [1] [2] [0] [0]
  dot_S8x2048x128_S128x128_S8x2048x128_2_1_01_0_n_n_wf : DotDims.WF S8x2048x128 S128x128 S8x2048x128 [2] [1] [0, 1] [0] [] []

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf

class Facts : Prop extends Facts₀ where

variable [Facts]
-- ==== Proof.KernelRun.lean ====
/-
  The idealized kernel's run, with its result named.

  The program is two kernel launches with a host transpose between them. Its run is the composition of three segments, and after
  the last one every buffer that outlives the launches holds the contents the fold through the segments gives it
  (`Gen.W3`). The frame claim only reads the four arguments out of that final state; here the result buffer is read as well:
  it ends holding what the second launch's write-backs leave in its output array.
-/
import proofs.«100926_j22308060135549_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faultless, with the result buffer at the fold's final contents and the
    arguments as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The result buffer is the second launch's output array: it ends at what that launch's write-backs leave. -/
theorem result_eq (c : Dev nD) :
    W3 m ρ c (Proc.devRef .tc main_v3) = (dat1 (V2 m ρ) c).arrAt 5 cfg1.N :=
  W3_arr m ρ c 5

end Cert.KernelIdeal.RunOut

end
-- ==== Proof.LibColumnLayout.lean ====
/-
  Column forms of two layout operations, read at an index.

  A reduction that keeps its axis (`keepdims`) yields a column `[a, 1]`: the reduced vector `[a]` cast to a column, and the column
  broadcast back across `b` lanes. Both read the operand at the row's index, whatever the unit coordinate.
-/
import Idealize.ShloMosaic.Lib.ValueIdx
import Idealize.ShloMosaic.Lib.Pipeline.Value

noncomputable section

namespace Cert.Lib.ColumnLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Lib.ColumnLayout

end
-- ==== Proof.Payloads.lean ====
/-
  The two kernel bodies' arithmetic, read at one element.

  First body, on a block of 1024 rows of the adjacency (all 2048 columns) and the same rows of the features: the row's degree is the
  sum of its 2048 adjacency entries plus one; its scale is the reciprocal square root of the degree where the degree is positive and
  zero elsewhere; the body stores the scale (one column) and the features of the row times the scale.

  Second body, on 1024 rows of the adjacency, ALL 2048 rows of the scaled features of the batch, the 1024 scales, the transposed
  weights and the bias: entry (r, o) of what it stores is the sum over the 128 features f of
  scale r · (∑ₖ adj r k · xs k f + xs' r f) · wt f o, plus bias o — where xs' is the body's second, offset read of the scaled
  features (the block's own rows).
-/
import proofs.«100926_j22308060135549_2_alg».proof.Proof.Gen.KernelIdeal.Skeleton
import proofs.«100926_j22308060135549_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Facts₀ Cert.KernelIdeal.Facts
open Idealize.ShloMosaic Idealize.ShloMosaic.ValueIdx Cert.Lib.ColumnLayout

/-! ## The two matrix products as sums -/

abbrev dotA := dot_S1024x2048_S2048x128_S1024x128_1_0_0_1_n_n
abbrev dotW := dot_S1024x128_S128x128_S1024x128_1_0_0_1_n_n

theorem dotA_lhs0 (i : S1024x128.Idx) (q : dotA.contr.Idx) : (dotA.lhsIdx i q 0).val = (i 0).val := by
  unfold DotDims.lhsIdx
  rw [dif_neg (show ¬(0 : Fin S1024x2048.rank) ∈ dotA.lhsBatch by decide), dif_pos (show (0 : Fin S1024x2048.rank) ∈ dotA.lhsNonContracting by decide)]
  rfl
theorem dotA_lhs1 (i : S1024x128.Idx) (q : dotA.contr.Idx) : (dotA.lhsIdx i q 1).val = (q ⟨0, by decide⟩).val :=
  dotA.lhsIdx_val_of_single rfl i q
theorem dotA_rhs0 (i : S1024x128.Idx) (q : dotA.contr.Idx) : (dotA.rhsIdx i q 0).val = (q ⟨0, by decide⟩).val :=
  dotA.rhsIdx_val_of_single rfl i q
theorem dotA_rhs1 (i : S1024x128.Idx) (q : dotA.contr.Idx) : (dotA.rhsIdx i q 1).val = (i 1).val := by
  unfold DotDims.rhsIdx
  rw [dif_neg (show ¬(1 : Fin S2048x128.rank) ∈ dotA.rhsBatch by decide), dif_pos (show (1 : Fin S2048x128.rank) ∈ dotA.rhsNonContracting by decide)]
  rfl

/-- Rows of the adjacency block against the scaled features: entry `(p, f)` is the sum over the 2048 columns. -/
theorem matmulA_apply (l : FVec Ideal S1024x2048 .bf16) (r : FVec Ideal S2048x128 .bf16) (p : Fin 1024) (f : Fin 128) :
    matmul dotA none l r (constant (F := Ideal) S1024x128 .f32 0x00000000#32) (ix2 p f)
      = ∑ k : Fin 2048, l (ix2 p k) * r (ix2 k f) := by
  refine (Ideal.matmul_constant_zero_apply dotA none l r (ix2 p f)).trans ?_
  rw [← Equiv.sum_comp (ValueIdx.contrEquiv1 dotA 2048 rfl rfl).symm]
  refine Finset.sum_congr rfl fun k _ => ?_
  have hk := ValueIdx.contrEquiv1_symm_val dotA 2048 rfl rfl k
  have el : dotA.lhsIdx (ix2 p f) ((ValueIdx.contrEquiv1 dotA 2048 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p f) ((ValueIdx.contrEquiv1 dotA 2048 rfl rfl).symm k) = ix2 k f := funext fun a => Fin.ext (by
    match a with
    | ⟨0, _⟩ => exact (dotA_rhs0 _ _).trans hk
    | ⟨1, _⟩ => exact dotA_rhs1 _ _)
  rw [el, er]

theorem dotW_lhs0 (i : S1024x128.Idx) (q : dotW.contr.Idx) : (dotW.lhsIdx i q 0).val = (i 0).val := by
  unfold DotDims.lhsIdx
  rw [dif_neg (show ¬(0 : Fin S1024x128.rank) ∈ dotW.lhsBatch by decide), dif_pos (show (0 : Fin S1024x128.rank) ∈ dotW.lhsNonContracting by decide)]
  rfl
theorem dotW_lhs1 (i : S1024x128.Idx) (q : dotW.contr.Idx) : (dotW.lhsIdx i q 1).val = (q ⟨0, by decide⟩).val :=
  dotW.lhsIdx_val_of_single rfl i q
theorem dotW_rhs0 (i : S1024x128.Idx) (q : dotW.contr.Idx) : (dotW.rhsIdx i q 0).val = (q ⟨0, by decide⟩).val :=
  dotW.rhsIdx_val_of_single rfl i q
theorem dotW_rhs1 (i : S1024x128.Idx) (q : dotW.contr.Idx) : (dotW.rhsIdx i q 1).val = (i 1).val := by
  unfold DotDims.rhsIdx
  rw [dif_neg (show ¬(1 : Fin S128x128.rank) ∈ dotW.rhsBatch by decide), dif_pos (show (1 : Fin S128x128.rank) ∈ dotW.rhsNonContracting by decide)]
  rfl

/-- The projection: entry `(p, o)` is the sum over the 128 features. -/
theorem matmulW_apply (l : FVec Ideal S1024x128 .bf16) (r : FVec Ideal S128x128 .bf16) (p : Fin 1024) (o : Fin 128) :
    matmul dotW none l r (constant (F := Ideal) S1024x128 .f32 0x00000000#32) (ix2 p o)
      = ∑ f : Fin 128, l (ix2 p f) * r (ix2 f o) := by
  refine (Ideal.matmul_constant_zero_apply dotW none l r (ix2 p o)).trans ?_
  rw [← Equiv.sum_comp (ValueIdx.contrEquiv1 dotW 128 rfl rfl).symm]
  refine Finset.sum_congr rfl fun k _ => ?_
  have hk := ValueIdx.contrEquiv1_symm_val dotW 128 rfl rfl k
  have el : dotW.lhsIdx (ix2 p o) ((ValueIdx.contrEquiv1 dotW 128 rfl rfl).symm k) = ix2 p k := funext fun a => Fin.ext (by
    match a with
    | ⟨0, _⟩ => exact dotW_lhs0 _ _
    | ⟨1, _⟩ => exact (dotW_lhs1 _ _).trans hk)
  have er : dotW.rhsIdx (ix2 p o) ((ValueIdx.contrEquiv1 dotW 128 rfl rfl).symm k) = ix2 k o := funext fun a => Fin.ext (by
    match a with
    | ⟨0, _⟩ => exact (dotW_rhs0 _ _).trans hk
    | ⟨1, _⟩ => exact dotW_rhs1 _ _)
  rw [el, er]

/-! ## The first body -/

/-- A row's degree as the body computes it: its 2048 adjacency entries summed, plus the float `1.0`. -/
def rowDegree (v0 : Vec Ideal S1x1024x2048 .f32) (r : Fin 1024) : EReal :=
  (∑ k : Fin 2048, v0 (ix3 (0 : Fin 1) r k)) + Ideal.ofBits .f32 0x3F800000#32

/-- The row's scale as the body computes it: the reciprocal root where the degree exceeds the float `0.0`, else `0.0`. -/
def rowScale (v0 : Vec Ideal S1x1024x2048 .f32) (r : Fin 1024) : EReal :=
  Scalar.select (Ideal.cmp .ogt (rowDegree v0 r) (Ideal.ofBits .f32 0x00000000#32)) (Ideal.rsqrt (rowDegree v0 r)) (Ideal.ofBits .f32 0x00000000#32)

/-- The lane sum over the block's columns, read at a row. -/
theorem rowsum_apply (v0 : Vec Ideal S1x1024x2048 .f32) (r : Fin 1024) :
    multiReduction (F := Ideal) .add [1] S1024 (shapeCast S1024x2048 v0 Facts₀.shapeCasts_S1x1024x2048_S1024x2048 : FVec Ideal S1024x2048 .f32) 0x00000000#32 Facts₀.reduces_S1024x2048_S1024 (.inl rfl) rfl (ix1 r)
      = ∑ k : Fin 2048, v0 (ix3 (0 : Fin 1) r k) := by
  refine (Ideal.multiReduction_add_single (shapeCast S1024x2048 v0 Facts₀.shapeCasts_S1x1024x2048_S1024x2048 : FVec Ideal S1024x2048 .f32) 0x00000000#32 Facts₀.reduces_S1024x2048_S1024 (.inl rfl) rfl (ix1 r)).trans ?_
  refine Finset.sum_congr rfl fun k _ => ?_
  have e : Facts₀.reduces_S1024x2048_S1024.lift (ix1 r) k = ix2 r k :=
    funext fun a => Fin.ext (by match a with | ⟨0, _⟩ => rfl | ⟨1, _⟩ => rfl)
  rw [e]
  exact shapeCast_1ab_ab_apply v0 _ r k

/-- The scale the first body computes for row `r` of its block. -/
theorem pay_scale_apply (v0 : Vec Ideal S1x1024x2048 .f32) (r : Fin 1024) :
    k0_pay1 (F := Ideal) v0 (ix2 r (0 : Fin 1)) = rowScale v0 r := by
  have hs : addf (shapeCast S1024x1 (multiReduction (F := Ideal) .add [1] S1024 (shapeCast S1024x2048 v0 Facts₀.shapeCasts_S1x1024x2048_S1024x2048 : FVec Ideal S1024x2048 .f32) 0x00000000#32 Facts₀.reduces_S1024x2048_S1024 (.inl rfl) rfl) Facts₀.shapeCasts_S1024_S1024x1)
      (broadcast S1024x1 (Scalar.ofBits (F := Ideal) .f32 0x3F800000#32)) (ix2 r (0 : Fin 1)) = rowDegree v0 r := by
    show (_ : EReal) + _ = _
    unfold rowDegree
    refine congrArg₂ (· + ·) ?_ rfl
    exact (shapeCast_a_a1_apply _ _ r (0 : Fin 1)).trans (rowsum_apply v0 r)
  unfold k0_pay1 rowScale
  show Scalar.select (Ideal.cmp .ogt _ _) (Ideal.rsqrt _) _ = _
  rw [hs]
  rfl

/-- What the first body stores for the scales: row `r`'s scale. -/
theorem pay_dinv_apply (v0 : Vec Ideal S1x1024x2048 .f32) (r : Fin 1024) (u : Fin 1) :
    k0_pay2 (F := Ideal) v0 (ix3 (0 : Fin 1) r u) = rowScale v0 r := by
  have hu : u = 0 := Fin.ext (by omega)
  subst hu
  unfold k0_pay2
  exact (shapeCast_ab_1ab_apply _ _ (0 : Fin 1) r (0 : Fin 1)).trans (pay_scale_apply v0 r)

/-- What the first body stores for the scaled features: row `r`'s scale times its feature `f`. -/
theorem pay_xs_apply (v0 : Vec Ideal S1x1024x2048 .f32) (v14 : Vec Ideal S1x1024x128 .f32) (r : Fin 1024) (f : Fin 128) :
    k0_pay3 (F := Ideal) v0 v14 (ix3 (0 : Fin 1) r f) = rowScale v0 r * v14 (ix3 (0 : Fin 1) r f) := by
  unfold k0_pay3
  refine (shapeCast_ab_1ab_apply _ _ (0 : Fin 1) r f).trans ?_
  show (_ : EReal) * _ = _
  refine congrArg₂ (· * ·) ?_ ?_
  · exact (broadcastTo_a1_ab_apply _ _ r f).trans (pay_scale_apply v0 r)
  · exact shapeCast_1ab_ab_apply v14 _ r f

/-! ## The second body -/

/-- Entry `(r, o)` of what the second body stores. -/
theorem pay_out_apply (v2 : Vec Ideal S1x1024x2048 .f32) (v5 : Vec Ideal S1x2048x128 .bf16) (v8 : Vec Ideal S1x1024x1 .f32)
    (v11 : Vec Ideal S1x1024x128 .bf16) (v18 : Vec Ideal S128x128 .bf16) (v21 : Vec Ideal S128 .f32) (r : Fin 1024) (o : Fin 128) :
    k1_pay1 (F := Ideal) v2 v5 v8 v11 v18 v21 (ix3 (0 : Fin 1) r o)
      = (∑ f : Fin 128, (v8 (ix3 (0 : Fin 1) r (0 : Fin 1))
            * ((∑ k : Fin 2048, v2 (ix3 (0 : Fin 1) r k) * v5 (ix3 (0 : Fin 1) k f)) + v11 (ix3 (0 : Fin 1) r f))) * v18 (ix2 f o))
          + v21 (ix1 o) := by
  unfold k1_pay1
  refine (shapeCast_ab_1ab_apply _ _ (0 : Fin 1) r o).trans ?_
  show (_ : EReal) + _ = _
  refine congrArg₂ (· + ·) ?_ ?_
  · refine (matmulW_apply _ _ r o).trans ?_
    refine Finset.sum_congr rfl fun f _ => ?_
    refine congrArg₂ (· * ·) ?_ ?_
    · show (_ : EReal) * (_ + _) = _
      refine congrArg₂ (· * ·) ?_ (congrArg₂ (· + ·) ?_ ?_)
      · exact (broadcastTo_a1_ab_apply _ _ r f).trans (shapeCast_1ab_ab_apply v8 _ r (0 : Fin 1))
      · refine (matmulA_apply _ _ r f).trans (Finset.sum_congr rfl fun k _ => congrArg₂ (· * ·) ?_ ?_)
        · exact shapeCast_1ab_ab_apply v2 _ r k
        · exact shapeCast_1ab_ab_apply v5 _ k f
      · exact shapeCast_1ab_ab_apply v11 _ r f
    · exact congrFun (shapeCast_self v18 _) (ix2 f o)
  · exact (broadcastTo_1b_ab_apply _ _ r o).trans (shapeCast_a_1a_apply v21 _ (0 : Fin 1) o)

end Cert.KernelIdeal.Payload

end
-- ==== Proof.Spec.lean ====
/-
  The normalised graph convolution as whole-array functions, index by index, in the order the kernel computes it.

  For a batch `b` and a node `n`: the degree is the sum of row `n` of the adjacency plus one (the self-loop); the scale `δ b n` is
  the reciprocal square root of a positive degree and zero otherwise. The scaled features are `δ b n · x b n f`. The output at
  `(b, n, o)` is `∑_f δ b n · (∑_m adj b n m · xs b m f + xs b n f) · wt f o + bias o`, where `xs`, `δ` and `wt` are ARRAYS here
  (the second launch reads them from memory); substituting the first launch's arrays and the transposed weights gives the program.
-/
import Idealize.ShloMosaic.PureOps.Ideal
import Idealize.ShloMosaic.Lib.ValueIdx

noncomputable section

namespace Cert.GraphConv

open Idealize.ShloMosaic Idealize.ShloMosaic.ValueIdx

abbrev Adj := (⟨3, ![8, 2048, 2048]⟩ : Shape).Idx → EReal
abbrev Feat := (⟨3, ![8, 2048, 128]⟩ : Shape).Idx → EReal
abbrev Col := (⟨3, ![8, 2048, 1]⟩ : Shape).Idx → EReal
abbrev Wt := (⟨2, ![128, 128]⟩ : Shape).Idx → EReal
abbrev Bias := (⟨1, ![128]⟩ : Shape).Idx → EReal

/-- The degree of node `n` of batch `b`: its adjacency row summed, plus the float `1.0`. -/
def degreeAt (A : Adj) (b : Fin 8) (n : Fin 2048) : EReal :=
  (∑ k : Fin 2048, A (ix3 b n k)) + Ideal.ofBits .f32 0x3F800000#32

/-- Its scale: the reciprocal root where the degree exceeds the float `0.0`, else `0.0`. -/
def scaleAt (A : Adj) (b : Fin 8) (n : Fin 2048) : EReal :=
  Scalar.select (Ideal.cmp .ogt (degreeAt A b n) (Ideal.ofBits .f32 0x00000000#32)) (Ideal.rsqrt (degreeAt A b n))
    (Ideal.ofBits .f32 0x00000000#32)

/-- The scales as the column array the first launch writes. -/
def scales (A : Adj) : Col := fun i => scaleAt A (i 0) (i 1)

/-- The scaled features the first launch writes. -/
def scaled (A : Adj) (X : Feat) : Feat := fun i => scaleAt A (i 0) (i 1) * X i

/-- What the second launch writes, from the arrays it reads. -/
def conv (A : Adj) (XS : Feat) (D : Col) (WT : Wt) (BI : Bias) : Feat := fun i =>
  (∑ f : Fin 128, (D (ix3 (i 0) (i 1) (0 : Fin 1))
      * ((∑ k : Fin 2048, A (ix3 (i 0) (i 1) k) * XS (ix3 (i 0) k f)) + XS (ix3 (i 0) (i 1) f))) * WT (ix2 f (i 2)))
    + BI (ix1 (i 2))

/-- Two indices with the same three coordinates are one index. -/
theorem idx3_ext {n0 n1 n2 : ℕ} (i j : (⟨3, ![n0, n1, n2]⟩ : Shape).Idx) (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

end Cert.GraphConv

end
-- ==== Proof.Region0.lean ====
/-
  The first launch's two output arrays as whole-array functions of what the launch finds in memory.

  The grid is 8 batches × 2 row tiles. At a point, the adjacency block is rows [1024·q, 1024·q + 1024) of batch `b`, all 2048
  columns, and the feature block the same rows: the body's row `r` is node `1024·q + r` of batch `b`, and it sums the node's whole
  adjacency row. So what the point writes back to the scales (resp. the scaled features) is its block of `GraphConv.scales`
  (resp. `GraphConv.scaled`) of the arrays; the 16 blocks tile each output array, so the arrays end as those functions.
-/
import proofs.«100926_j22308060135549_2_alg».proof.Proof.Gen.KernelIdeal.Frame
import proofs.«100926_j22308060135549_2_alg».proof.Proof.Payloads
import proofs.«100926_j22308060135549_2_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the 16 grid points: the inputs' blocks move with the outputs', on the batch and row-tile axes,
    and no window moves along its last axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0
    ∧ win0_2.index t (0 : Fin 3) ≤ 7 ∧ win0_2.index t (1 : Fin 3) ≤ 1 ∧ win0_2.index t (2 : Fin 3) = 0 :=
  (by decide +kernel : ∀ t : Fin grid0.N, _)

/-- Every (batch, row tile) is some point's block of the scales, -/
theorem idx_onto2 : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])
/-- and of the scaled features. -/
theorem idx_onto3 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## One point, over variables -/

/-- The body's stored scale at a block position is the array function at a node, when the body's adjacency block holds that
    node's row. -/
theorem scales_block (A : GraphConv.Adj) (x0 : Vec Ideal S1x1024x2048 .f32) (j : S1x1024x1.Idx) (i : S8x2048x1.Idx)
    (hx : ∀ k : Fin 2048, ∃ i' : S8x2048x2048.Idx, x0 (ix3 (0 : Fin 1) (j 1) k) = A i'
      ∧ (i' 0).val = (i 0).val ∧ (i' 1).val = (i 1).val ∧ (i' 2).val = k.val) :
    k0_pay2 (F := Ideal) x0 j = GraphConv.scales A i := by
  obtain ⟨u, r, w, rfl⟩ : ∃ (u : Fin 1) (r : Fin 1024) (w : Fin 1), j = ix3 u r w := ⟨j 0, j 1, j 2, eq_ix3 j⟩
  have hu : u = 0 := Fin.ext (by omega)
  subst hu
  rw [Payload.pay_dinv_apply]
  have hsum : (∑ k : Fin 2048, x0 (ix3 (0 : Fin 1) r k)) = ∑ k : Fin 2048, A (ix3 (i 0) (i 1) k) :=
    Finset.sum_congr rfl fun k _ => by
      obtain ⟨i', e, h0, h1, h2⟩ := hx k
      exact e.trans (congrArg A (GraphConv.idx3_ext _ _ h0 h1 h2))
  unfold Payload.rowScale Payload.rowDegree GraphConv.scales GraphConv.scaleAt GraphConv.degreeAt
  rw [hsum]

/-- The body's stored scaled feature at a block position is the array function at a node and a feature. -/
theorem scaled_block (A : GraphConv.Adj) (X : GraphConv.Feat) (x0 : Vec Ideal S1x1024x2048 .f32) (x1 : Vec Ideal S1x1024x128 .f32)
    (j : S1x1024x128.Idx) (i : S8x2048x128.Idx)
    (hx : ∀ k : Fin 2048, ∃ i' : S8x2048x2048.Idx, x0 (ix3 (0 : Fin 1) (j 1) k) = A i'
      ∧ (i' 0).val = (i 0).val ∧ (i' 1).val = (i 1).val ∧ (i' 2).val = k.val)
    (hy : x1 j = X i) :
    k0_pay3 (F := Ideal) x0 x1 j = GraphConv.scaled A X i := by
  obtain ⟨u, r, f, rfl⟩ : ∃ (u : Fin 1) (r : Fin 1024) (f : Fin 128), j = ix3 u r f := ⟨j 0, j 1, j 2, eq_ix3 j⟩
  have hu : u = 0 := Fin.ext (by omega)
  subst hu
  rw [Payload.pay_xs_apply, hy]
  have hsum : (∑ k : Fin 2048, x0 (ix3 (0 : Fin 1) r k)) = ∑ k : Fin 2048, A (ix3 (i 0) (i 1) k) :=
    Finset.sum_congr rfl fun k _ => by
      obtain ⟨i', e, h0, h1, h2⟩ := hx k
      exact e.trans (congrArg A (GraphConv.idx3_ext _ _ h0 h1 h2))
  unfold Payload.rowScale Payload.rowDegree GraphConv.scaled GraphConv.scaleAt GraphConv.degreeAt
  rw [hsum]

/-! ## What a point writes back -/

/-- Point `t` writes back its block of the scales of the adjacency as the launch finds it. -/
theorem flushed_scales (c : Dev nD) (t : Fin cfg0.N) :
    (dat0 V c).flushed 2 t = ((cfg0.win 2).blk t).view.read (Elt Ideal) (GraphConv.scales (V c main_arg1)) := by
  show (cfg0.win 2).cut (grid0.coords t) ((dat0 V c).after 2 t) = _
  rw [after0_2]
  unfold out0_2
  rw [View.canon_unit_zero hz3]
  simp only [View.ld_unit_zero (S := S1x1024x2048) hz3]
  obtain ⟨e00, e01, e02, e10, e11, e12, e30, e31, e32, b0, b1, b2⟩ := idx_facts t
  funext j
  show k0_pay2 (F := Ideal) (iblk0 V c 0 t) j = GraphConv.scales (V c main_arg1) (((cfg0.win 2).blk t).view.emb j)
  refine scales_block (V c main_arg1) (iblk0 V c 0 t) j _ fun k =>
    ⟨((cfg0.win 0).blk t).view.emb (ix3 (0 : Fin 1) (j 1) k), rfl, ?_, ?_, ?_⟩
  · show win0_0.index t (0 : Fin 3) * 1 + 1 * 0 = win0_2.index t (0 : Fin 3) * 1 + 1 * (j 0).val
    have hj : (j 0).val < 1 := (j 0).isLt
    omega
  · show win0_0.index t (1 : Fin 3) * 1024 + 1 * (j 1).val = win0_2.index t (1 : Fin 3) * 1024 + 1 * (j 1).val
    omega
  · show win0_0.index t (2 : Fin 3) * 2048 + 1 * k.val = k.val
    omega

/-- Point `t` writes back its block of the scaled features of the arrays as the launch finds them. -/
theorem flushed_scaled (c : Dev nD) (t : Fin cfg0.N) :
    (dat0 V c).flushed 3 t = ((cfg0.win 3).blk t).view.read (Elt Ideal) (GraphConv.scaled (V c main_arg1) (V c main_arg0)) := by
  show (cfg0.win 3).cut (grid0.coords t) ((dat0 V c).after 3 t) = _
  rw [after0_3]
  unfold out0_3
  rw [View.canon_unit_zero hz3]
  simp only [View.ld_unit_zero (S := S1x1024x2048) hz3, View.ld_unit_zero (S := S1x1024x128) hz3]
  obtain ⟨e00, e01, e02, e10, e11, e12, e30, e31, e32, b0, b1, b2⟩ := idx_facts t
  funext j
  show k0_pay3 (F := Ideal) (iblk0 V c 0 t) (iblk0 V c 1 t) j
    = GraphConv.scaled (V c main_arg1) (V c main_arg0) (((cfg0.win 3).blk t).view.emb j)
  refine scaled_block (V c main_arg1) (V c main_arg0) (iblk0 V c 0 t) (iblk0 V c 1 t) j _ (fun k =>
    ⟨((cfg0.win 0).blk t).view.emb (ix3 (0 : Fin 1) (j 1) k), rfl, ?_, ?_, ?_⟩) ?_
  · show win0_0.index t (0 : Fin 3) * 1 + 1 * 0 = win0_3.index t (0 : Fin 3) * 1 + 1 * (j 0).val
    have hj : (j 0).val < 1 := (j 0).isLt
    omega
  · show win0_0.index t (1 : Fin 3) * 1024 + 1 * (j 1).val = win0_3.index t (1 : Fin 3) * 1024 + 1 * (j 1).val
    omega
  · show win0_0.index t (2 : Fin 3) * 2048 + 1 * k.val = k.val
    omega
  · show V c main_arg0 (((cfg0.win 1).blk t).view.emb j) = V c main_arg0 (((cfg0.win 3).blk t).view.emb j)
    refine congrArg (V c main_arg0) (funext fun a => Fin.ext ?_)
    match a with
    | ⟨0, _⟩ => show win0_1.index t (0 : Fin 3) * 1 + 1 * (j 0).val = win0_3.index t (0 : Fin 3) * 1 + 1 * (j 0).val; omega
    | ⟨1, _⟩ => show win0_1.index t (1 : Fin 3) * 1024 + 1 * (j 1).val = win0_3.index t (1 : Fin 3) * 1024 + 1 * (j 1).val; omega
    | ⟨2, _⟩ => show win0_1.index t (2 : Fin 3) * 128 + 1 * (j 2).val = win0_3.index t (2 : Fin 3) * 128 + 1 * (j 2).val; omega

/-! ## The blocks tile the arrays -/

theorem mem_blk2 (t : Fin cfg0.N) (i : S8x2048x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0_0).slice (win0_2.rect t)).set ↔ _
  rw [View.set_slice_whole, Rect.mem_set_unit]
  exact Iff.rfl

theorem mem_blk3 (t : Fin cfg0.N) (i : S8x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0_1).slice (win0_3.rect t)).set ↔ _
  rw [View.set_slice_whole, Rect.mem_set_unit]
  exact Iff.rfl

/-- Node `n` of batch `b` lies in the block of the point with row tile `n / 1024`. -/
theorem cover2 (i : S8x2048x1.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1 := (i 2).isLt
  obtain ⟨t, ht⟩ := idx_onto2 ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

theorem cover3 (i : S8x2048x128.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-! ## The arrays after the launch -/

/-- The scales' array ends as the scales of the adjacency. -/
theorem final_scales (c : Dev nD) : (dat0 V c).arrAt 2 cfg0.N = GraphConv.scales (V c main_arg1) :=
  (dat0 V c).arrAt_eq_of_cover 2 _ (fun t _ => flushed_scales V c t) cover2

/-- The scaled features' array ends as the scaled features of the adjacency and the features. -/
theorem final_scaled (c : Dev nD) : (dat0 V c).arrAt 3 cfg0.N = GraphConv.scaled (V c main_arg1) (V c main_arg0) :=
  (dat0 V c).arrAt_eq_of_cover 3 _ (fun t _ => flushed_scaled V c t) cover3

end Cert.KernelIdeal.Region0

end
-- ==== Proof.Region1.lean ====
/-
  The second launch's output array as a whole-array function of what the launch finds in memory.

  The grid is again 8 batches × 2 row tiles. At a point of batch `b` and row tile `q` the body sees rows [1024·q, 1024·q + 1024) of the
  adjacency and of the scales, ALL 2048 rows of the batch's scaled features, and the whole weight and bias arrays; its second read of
  the scaled features, at row offset `1024·q`, is the tile's own rows. So row `r` of what it stores is node `1024·q + r` of
  `GraphConv.conv` of those arrays, and the 16 blocks tile the result.
-/
import proofs.«100926_j22308060135549_2_alg».proof.Proof.Gen.KernelIdeal.Frame
import proofs.«100926_j22308060135549_2_alg».proof.Proof.Payloads
import proofs.«100926_j22308060135549_2_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The body's one store -/

section Piece
variable {F : FTy → Type} [FloatOps F]

/-- The rectangle of the body's second read of the scaled features: 1024 rows from row `1024·q`. -/
abbrev ownRows (i : grid1.Coords) : Rect S1x2048x128 :=
  Rect.unit (s := S1x2048x128) (k1_off1 i) S1x1024x128.size (Facts₀.k1_off1_inb i)

/-- What the body leaves in the output's staging buffer: its payload of the input blocks, the fourth operand the own-rows read
    of the second. -/
theorem out_eq (c : Dev nD) (i : grid1.Coords) (arg2 : Memref sig .tc .vmem S1x1024x2048 .f32) (harg2 : arg2.IsWhole)
    (arg3 : Memref sig .tc .vmem S1x2048x128 .bf16) (harg3 : arg3.IsWhole) (arg4 : Memref sig .tc .vmem S1x1024x1 .f32) (harg4 : arg4.IsWhole)
    (arg5 : Memref sig .tc .vmem S128x128 .bf16) (harg5 : arg5.IsWhole) (arg6 : Memref sig .tc .vmem S128 .f32) (harg6 : arg6.IsWhole)
    (arg7 : Memref sig .tc .vmem S1x1024x128 .f32) (harg7 : arg7.IsWhole)
    (x0 : Vec F S1x1024x2048 .f32) (x1 : Vec F S1x2048x128 .bf16) (x2 : Vec F S1x1024x1 .f32) (x3 : Vec F S128x128 .bf16) (x4 : Vec F S128 .f32) :
    out1_A_5 c i arg2 harg2 arg3 harg3 arg4 harg4 arg5 harg5 arg6 harg6 arg7 harg7 x0 x1 x2 x3 x4
      = k1_pay1 x0 x1 x2 (View.ld x1 (ownRows i)) x3 x4 := by
  unfold out1_A_5
  rw [View.read_writes_eq_canon _ _ _ (cover1_A_5 c i arg2 harg2 arg3 harg3 arg4 harg4 arg5 harg5 arg6 harg6 arg7 harg7 x0 x1 x2 x3 x4)]
  unfold kernelRun1_A
  dsimp only
  rw [View.canon_unit_zero hz3]
  simp only [View.readAt_eq_ld, harg2.read_unread, harg3.read_unread, harg4.read_unread, harg5.read_unread, harg6.read_unread,
    View.ld_unit_zero (S := S1x1024x2048) hz3, View.ld_unit_zero (S := S1x2048x128) hz3, View.ld_unit_zero (S := S1x1024x1) hz3,
    View.ld_unit_zero (S := S128x128) hz2, View.ld_unit_zero (S := S128) hz1]

end Piece

variable (V : (c : Dev nD) → (b : Ref sig .tc) → Buf (Elt Ideal) ((c : Thread nD τ).loc b))

/-- The printed index maps over the 16 grid points. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = win1_5.index t (1 : Fin 3)
    ∧ win1_2.index t (2 : Fin 3) = 0
    ∧ win1_3.index t (0 : Fin 2) = 0 ∧ win1_3.index t (1 : Fin 2) = 0
    ∧ win1_4.index t (0 : Fin 1) = 0
    ∧ win1_5.index t (0 : Fin 3) ≤ 7 ∧ win1_5.index t (1 : Fin 3) ≤ 1 ∧ win1_5.index t (2 : Fin 3) = 0
    ∧ ((grid1.coords t) 1).val = win1_5.index t (1 : Fin 3) :=
  (by decide +kernel : ∀ t : Fin grid1.N, _)

theorem idx_onto5 : ∀ (q0 : Fin 8) (q1 : Fin 2), ∃ t : Fin cfg1.N, win1_5.index t = ![q0.val, q1.val, 0] :=
  (by decide +kernel : ∀ (q0 : Fin 8) (q1 : Fin 2), ∃ t : Fin grid1.N, win1_5.index t = ![q0.val, q1.val, 0])

/-! ## One point, over variables -/

/-- The body's stored entry at a block position is the array function at a node and an output feature, when each operand block
    holds the rows the array function reads. -/
theorem conv_block (A : GraphConv.Adj) (XS : GraphConv.Feat) (D : GraphConv.Col) (WT : GraphConv.Wt) (BI : GraphConv.Bias)
    (x0 : Vec Ideal S1x1024x2048 .f32) (x1 : Vec Ideal S1x2048x128 .bf16) (x2 : Vec Ideal S1x1024x1 .f32)
    (x11 : Vec Ideal S1x1024x128 .bf16) (x3 : Vec Ideal S128x128 .bf16) (x4 : Vec Ideal S128 .f32)
    (j : S1x1024x128.Idx) (i : S8x2048x128.Idx)
    (h0 : ∀ k : Fin 2048, ∃ i' : S8x2048x2048.Idx, x0 (ix3 (0 : Fin 1) (j 1) k) = A i'
      ∧ (i' 0).val = (i 0).val ∧ (i' 1).val = (i 1).val ∧ (i' 2).val = k.val)
    (h1 : ∀ (k : Fin 2048) (f : Fin 128), ∃ i' : S8x2048x128.Idx, x1 (ix3 (0 : Fin 1) k f) = XS i'
      ∧ (i' 0).val = (i 0).val ∧ (i' 1).val = k.val ∧ (i' 2).val = f.val)
    (h2 : ∃ i' : S8x2048x1.Idx, x2 (ix3 (0 : Fin 1) (j 1) (0 : Fin 1)) = D i'
      ∧ (i' 0).val = (i 0).val ∧ (i' 1).val = (i 1).val ∧ (i' 2).val = 0)
    (h11 : ∀ f : Fin 128, ∃ i' : S8x2048x128.Idx, x11 (ix3 (0 : Fin 1) (j 1) f) = XS i'
      ∧ (i' 0).val = (i 0).val ∧ (i' 1).val = (i 1).val ∧ (i' 2).val = f.val)
    (h3 : ∀ (f o : Fin 128), x3 (ix2 f o) = WT (ix2 f o))
    (h4 : ∀ o : Fin 128, x4 (ix1 o) = BI (ix1 o))
    (hj2 : (j 2).val = (i 2).val) :
    k1_pay1 (F := Ideal) x0 x1 x2 x11 x3 x4 j = GraphConv.conv A XS D WT BI i := by
  obtain ⟨u, r, o, rfl⟩ : ∃ (u : Fin 1) (r : Fin 1024) (o : Fin 128), j = ix3 u r o := ⟨j 0, j 1, j 2, eq_ix3 j⟩
  have hu : u = 0 := Fin.ext (by omega)
  subst hu
  have ho : o = i 2 := Fin.ext hj2
  rw [Payload.pay_out_apply]
  unfold GraphConv.conv
  refine congrArg₂ (· + ·) (Finset.sum_congr rfl fun f _ => congrArg₂ (· * ·) (congrArg₂ (· * ·) ?_
    (congrArg₂ (· + ·) (Finset.sum_congr rfl fun k _ => congrArg₂ (· * ·) ?_ ?_) ?_)) ?_) ?_
  · obtain ⟨i', e, a0, a1, a2⟩ := h2
    exact e.trans (congrArg D (GraphConv.idx3_ext _ _ a0 a1 a2))
  · obtain ⟨i', e, a0, a1, a2⟩ := h0 k
    exact e.trans (congrArg A (GraphConv.idx3_ext _ _ a0 a1 a2))
  · obtain ⟨i', e, a0, a1, a2⟩ := h1 k f
    exact e.trans (congrArg XS (GraphConv.idx3_ext _ _ a0 a1 a2))
  · obtain ⟨i', e, a0, a1, a2⟩ := h11 f
    exact e.trans (congrArg XS (GraphConv.idx3_ext _ _ a0 a1 a2))
  · exact (h3 f o).trans (congrArg (fun z => WT (ix2 f z)) ho)
  · exact (h4 o).trans (congrArg (fun z => BI (ix1 z)) ho)

/-! ## What a point writes back -/

/-- Point `t` writes back its block of `conv` of the arrays as the launch finds them. -/
theorem flushed_conv (c : Dev nD) (t : Fin cfg1.N) :
    (dat1 V c).flushed 5 t = ((cfg1.win 5).blk t).view.read (Elt Ideal)
      (GraphConv.conv (V c main_arg1) (V c main_v0_1) (V c main_v0_0) (V c main_v2) (V c main_arg3)) := by
  show (cfg1.win 5).cut (grid1.coords t) ((dat1 V c).after 5 t) = _
  rw [after1_5]
  unfold outsAt1
  rw [out_eq]
  obtain ⟨e00, e01, e02, e10, e11, e12, e20, e21, e22, e30, e31, e40, b0, b1, b2, hq⟩ := idx_facts t
  have hoff : k1_off1 (grid1.coords t) = ![0, 1024 * ((grid1.coords t) 1).val, 0] := k1_off1_eq (grid1.coords t)
  funext j
  show k1_pay1 (F := Ideal) (iblk1 V c 0 t) (iblk1 V c 1 t) (iblk1 V c 2 t) (View.ld (iblk1 V c 1 t) (ownRows (grid1.coords t)))
      (iblk1 V c 3 t) (iblk1 V c 4 t) j
    = GraphConv.conv (V c main_arg1) (V c main_v0_1) (V c main_v0_0) (V c main_v2) (V c main_arg3) (((cfg1.win 5).blk t).view.emb j)
  have hj0 : (j 0).val < 1 := (j 0).isLt
  refine conv_block (V c main_arg1) (V c main_v0_1) (V c main_v0_0) (V c main_v2) (V c main_arg3)
    (iblk1 V c 0 t) (iblk1 V c 1 t) (iblk1 V c 2 t) (View.ld (iblk1 V c 1 t) (ownRows (grid1.coords t))) (iblk1 V c 3 t) (iblk1 V c 4 t) j _
    (fun k => ⟨((cfg1.win 0).blk t).view.emb (ix3 (0 : Fin 1) (j 1) k), rfl, ?_, ?_, ?_⟩)
    (fun k f => ⟨((cfg1.win 1).blk t).view.emb (ix3 (0 : Fin 1) k f), rfl, ?_, ?_, ?_⟩)
    ⟨((cfg1.win 2).blk t).view.emb (ix3 (0 : Fin 1) (j 1) (0 : Fin 1)), rfl, ?_, ?_, ?_⟩
    (fun f => ⟨((cfg1.win 1).blk t).view.emb ((ownRows (grid1.coords t)).idx (ix3 (0 : Fin 1) (j 1) f)), rfl, ?_, ?_, ?_⟩)
    (fun f o => ?_) (fun o => ?_) ?_
  · show win1_0.index t (0 : Fin 3) * 1 + 1 * 0 = win1_5.index t (0 : Fin 3) * 1 + 1 * (j 0).val
    omega
  · show win1_0.index t (1 : Fin 3) * 1024 + 1 * (j 1).val = win1_5.index t (1 : Fin 3) * 1024 + 1 * (j 1).val
    omega
  · show win1_0.index t (2 : Fin 3) * 2048 + 1 * k.val = k.val
    omega
  · show win1_1.index t (0 : Fin 3) * 1 + 1 * 0 = win1_5.index t (0 : Fin 3) * 1 + 1 * (j 0).val
    omega
  · show win1_1.index t (1 : Fin 3) * 2048 + 1 * k.val = k.val
    omega
  · show win1_1.index t (2 : Fin 3) * 128 + 1 * f.val = f.val
    omega
  · show win1_2.index t (0 : Fin 3) * 1 + 1 * 0 = win1_5.index t (0 : Fin 3) * 1 + 1 * (j 0).val
    omega
  · show win1_2.index t (1 : Fin 3) * 1024 + 1 * (j 1).val = win1_5.index t (1 : Fin 3) * 1024 + 1 * (j 1).val
    omega
  · show win1_2.index t (2 : Fin 3) * 1 + 1 * 0 = 0
    omega
  · show win1_1.index t (0 : Fin 3) * 1 + 1 * (k1_off1 (grid1.coords t) 0 + 1 * 0) = win1_5.index t (0 : Fin 3) * 1 + 1 * (j 0).val
    rw [hoff]
    show win1_1.index t (0 : Fin 3) * 1 + 1 * (0 + 1 * 0) = _
    omega
  · show win1_1.index t (1 : Fin 3) * 2048 + 1 * (k1_off1 (grid1.coords t) 1 + 1 * (j 1).val) = win1_5.index t (1 : Fin 3) * 1024 + 1 * (j 1).val
    rw [hoff]
    show win1_1.index t (1 : Fin 3) * 2048 + 1 * (1024 * ((grid1.coords t) 1).val + 1 * (j 1).val) = _
    omega
  · show win1_1.index t (2 : Fin 3) * 128 + 1 * (k1_off1 (grid1.coords t) 2 + 1 * f.val) = f.val
    rw [hoff]
    show win1_1.index t (2 : Fin 3) * 128 + 1 * (0 + 1 * f.val) = _
    omega
  · show V c main_v2 (((cfg1.win 3).blk t).view.emb (ix2 f o)) = V c main_v2 (ix2 f o)
    refine congrArg (V c main_v2) (funext fun a => Fin.ext ?_)
    match a with
    | ⟨0, _⟩ => show win1_3.index t (0 : Fin 2) * 128 + 1 * f.val = f.val; omega
    | ⟨1, _⟩ => show win1_3.index t (1 : Fin 2) * 128 + 1 * o.val = o.val; omega
  · show V c main_arg3 (((cfg1.win 4).blk t).view.emb (ix1 o)) = V c main_arg3 (ix1 o)
    refine congrArg (V c main_arg3) (funext fun a => Fin.ext ?_)
    match a with
    | ⟨0, _⟩ => show win1_4.index t (0 : Fin 1) * 128 + 1 * o.val = o.val; omega
  · show (j 2).val = win1_5.index t (2 : Fin 3) * 128 + 1 * (j 2).val
    omega

/-! ## The blocks tile the result -/

theorem mem_blk5 (t : Fin cfg1.N) (i : S8x2048x128.Idx) :
    i ∈ ((cfg1.win 5).blk t).view.set ↔ ∀ a : Fin 3, win1_5.index t a * S1x1024x128.size a ≤ (i a).val ∧ (i a).val < win1_5.index t a * S1x1024x128.size a + S1x1024x128.size a := by
  show i ∈ ((View.whole main_v3).slice (win1_5.rect t)).set ↔ _
  rw [View.set_slice_whole, Rect.mem_set_unit]
  exact Iff.rfl

theorem cover5 (i : S8x2048x128.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 128 := (i 2).isLt
  obtain ⟨t, ht⟩ := idx_onto5 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 128 ≤ (i 2).val ∧ (i 2).val < win1_5.index t (2 : Fin 3) * 128 + 128; omega

/-- The result array ends as `conv` of the arrays the launch finds. -/
theorem final_conv (c : Dev nD) : (dat1 V c).arrAt 5 cfg1.N
    = GraphConv.conv (V c main_arg1) (V c main_v0_1) (V c main_v0_0) (V c main_v2) (V c main_arg3) :=
  (dat1 V c).arrAt_eq_of_cover 5 _ (fun t _ => flushed_conv V c t) cover5

end Cert.KernelIdeal.Region1

end
-- ==== Proof.KernelValue.lean ====
/-
  The idealized kernel's result as one function of its four arguments.

  Between the launches the host transposes the weights (and changes their float format, the identity on extended reals); nothing
  else is written. So the second launch finds: the adjacency and the bias as launched; the first launch's two arrays, which are
  the scales and the scaled features of the launched adjacency and features; and `wt f o = W o f`. Its result array is `conv` of
  those.
-/
import proofs.«100926_j22308060135549_2_alg».proof.Proof.KernelRun
import proofs.«100926_j22308060135549_2_alg».proof.Proof.Region0
import proofs.«100926_j22308060135549_2_alg».proof.Proof.Region1
import Idealize.ShloMosaic.Lib.StableHlo.Run
import Idealize.ShloMosaic.Lib.ValueLayout

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The weights as the second launch reads them: transposed. -/
def transposed (W : GraphConv.Wt) : GraphConv.Wt := fun i => W (ix2 (i 1) (i 0))

/-- The kernel's result as a function of the arguments. -/
def result (X : GraphConv.Feat) (A : GraphConv.Adj) (W : GraphConv.Wt) (B : GraphConv.Bias) : GraphConv.Feat :=
  GraphConv.conv A (GraphConv.scaled A X) (GraphConv.scales A) (transposed W) B

/-- A buffer the host stretch does not write keeps its contents across it. -/
theorem kept_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h1, StableHlo.devRef_ne_of_ne h2⟩))

/-- The second launch finds the adjacency as launched, -/
theorem entry_adj (c : Dev nD) : V2 m ρ c main_arg1 = m ((c : Thread nD τ).loc main_arg1) :=
  calc W2 m ρ c (Proc.devRef .tc main_arg1)
    _ = W1 m ρ c (Proc.devRef .tc main_arg1) := kept_of_not_written m ρ c main_arg1 (by decide) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- the bias as launched, -/
theorem entry_bias (c : Dev nD) : V2 m ρ c main_arg3 = m ((c : Thread nD τ).loc main_arg3) :=
  calc W2 m ρ c (Proc.devRef .tc main_arg3)
    _ = W1 m ρ c (Proc.devRef .tc main_arg3) := kept_of_not_written m ρ c main_arg3 (by decide) (by decide)
    _ = W0 m ρ c (Proc.devRef .tc main_arg3) := W1_of_ne m ρ c main_arg3 (by decide)
    _ = m ((c : Thread nD τ).loc main_arg3) := rfl

/-- the scales of the launched adjacency, -/
theorem entry_scales (c : Dev nD) : V2 m ρ c main_v0_0 = GraphConv.scales (m ((c : Thread nD τ).loc main_arg1)) :=
  calc W2 m ρ c (Proc.devRef .tc main_v0_0)
    _ = W1 m ρ c (Proc.devRef .tc main_v0_0) := kept_of_not_written m ρ c main_v0_0 (by decide) (by decide)
    _ = (dat0 (V0 m ρ) c).arrAt 2 cfg0.N := W1_arr m ρ c 2
    _ = GraphConv.scales (V0 m ρ c main_arg1) := Region0.final_scales (V0 m ρ) c
    _ = GraphConv.scales (m ((c : Thread nD τ).loc main_arg1)) := rfl

/-- the scaled features of the launched adjacency and features, -/
theorem entry_scaled (c : Dev nD) : V2 m ρ c main_v0_1
    = GraphConv.scaled (m ((c : Thread nD τ).loc main_arg1)) (m ((c : Thread nD τ).loc main_arg0)) :=
  calc W2 m ρ c (Proc.devRef .tc main_v0_1)
    _ = W1 m ρ c (Proc.devRef .tc main_v0_1) := kept_of_not_written m ρ c main_v0_1 (by decide) (by decide)
    _ = (dat0 (V0 m ρ) c).arrAt 3 cfg0.N := W1_arr m ρ c 3
    _ = GraphConv.scaled (V0 m ρ c main_arg1) (V0 m ρ c main_arg0) := Region0.final_scaled (V0 m ρ) c
    _ = GraphConv.scaled (m ((c : Thread nD τ).loc main_arg1)) (m ((c : Thread nD τ).loc main_arg0)) := rfl

/-- and the transposed weights. -/
theorem entry_weights (c : Dev nD) : V2 m ρ c main_v2 = transposed (m ((c : Thread nD τ).loc main_arg2)) := by
  have e : (W2 m ρ c (Proc.devRef .tc main_v2) : S128x128.Idx → EReal)
      = truncf (F := Ideal) .bf16 (transpose S128x128 [1, 0] (W1 m ρ c (Proc.devRef .tc main_arg2)) Facts₀.transposes_S128x128_S128x128_1_0)
          Facts₀.bitsLt_bf16_f32 := by
    show StableHlo.after hostOps1 (W1 m ρ c) (Proc.devRef .tc main_v2) = _
    after_results
  have e2 : W1 m ρ c (Proc.devRef .tc main_arg2) = m ((c : Thread nD τ).loc main_arg2) :=
    (W1_of_ne m ρ c main_arg2 (by decide)).trans rfl
  show W2 m ρ c (Proc.devRef .tc main_v2) = _
  rw [e, e2]
  funext i
  obtain ⟨f, o, rfl⟩ : ∃ (f : Fin 128) (o : Fin 128), i = ix2 f o := ⟨i 0, i 1, eq_ix2 i⟩
  exact transpose_ix2_apply (m ((c : Thread nD τ).loc main_arg2)) Facts₀.transposes_S128x128_S128x128_1_0 f o

/-- THE RESULT: after the run, the result buffer holds `result` of the launched arguments. -/
theorem final (c : Dev nD) :
    W3 m ρ c (Proc.devRef .tc main_v3)
      = result (m ((c : Thread nD τ).loc main_arg0)) (m ((c : Thread nD τ).loc main_arg1)) (m ((c : Thread nD τ).loc main_arg2))
          (m ((c : Thread nD τ).loc main_arg3)) := by
  rw [RunOut.result_eq, Region1.final_conv (V2 m ρ) c, entry_adj, entry_bias, entry_scales, entry_scaled, entry_weights]
  rfl

end Cert.KernelIdeal.ResultValue

end
-- ==== Proof.RefValue.lean ====
/-
  The reference's result as an index-by-index expression of its four arguments.

  The reference adds the identity matrix to the adjacency (`eyeAt n m` is 1 on the diagonal, 0 off it: a comparison of two
  iotas, converted), sums each row (from the float `0.0`), raises the row sum to the power `-0.5`, replaces an infinite power by
  `0.0`, scales the adjacency-plus-identity by the row's and the column's value, multiplies by the features, then by the weights
  (contracting the weights' SECOND axis), and adds the bias.
-/
import proofs.«100926_j22308060135549_2_alg».proof.Proof.Gen.ReferenceIdeal.Read
import proofs.«100926_j22308060135549_2_alg».proof.Proof.Spec
import Idealize.ShloMosaic.Lib.Affine

noncomputable section

namespace Cert.ReferenceIdeal.RefValue

open Cert.ReferenceIdeal Cert.ReferenceIdeal.Read Idealize.ShloMosaic Idealize.ShloMosaic.ValueIdx

/-- The identity matrix. -/
def eyeAt (n m : Fin 2048) : EReal := if n = m then 1 else 0

/-- The reference's degree of node `n` of batch `b`: the row of adjacency-plus-identity summed from `0.0`. -/
def degreeAt (A : GraphConv.Adj) (b : Fin 8) (n : Fin 2048) : EReal :=
  Ideal.ofBits .f32 0x00000000#32 + ∑ k : Fin 2048, (A (ix3 b n k) + eyeAt n k)

/-- The degree to the power `-0.5`. -/
def powAt (A : GraphConv.Adj) (b : Fin 8) (n : Fin 2048) : EReal :=
  Ideal.pow (degreeAt A b n) (Ideal.ofBits .f32 0xBF000000#32)

/-- The reference's scale: the power, or `0.0` where its absolute value is `+inf`. -/
def scaleAt (A : GraphConv.Adj) (b : Fin 8) (n : Fin 2048) : EReal :=
  Scalar.select (Ideal.cmp .oeq (max (powAt A b n) (-(powAt A b n))) (Ideal.ofBits .f32 0x7F800000#32))
    (Ideal.ofBits .f32 0x00000000#32) (powAt A b n)

/-- The aggregated features: the doubly scaled adjacency-plus-identity against the features. -/
def aggAt (X : GraphConv.Feat) (A : GraphConv.Adj) (b : Fin 8) (n : Fin 2048) (f : Fin 128) : EReal :=
  ∑ k : Fin 2048, ((scaleAt A b n * (A (ix3 b n k) + eyeAt n k)) * scaleAt A b k) * X (ix3 b k f)

/-- The reference's result. -/
def result (X : GraphConv.Feat) (A : GraphConv.Adj) (W : GraphConv.Wt) (B : GraphConv.Bias) : GraphConv.Feat := fun i =>
  (∑ f : Fin 128, aggAt X A (i 0) (i 1) f * W (ix2 (i 2) f)) + B (ix1 (i 2))

/-- The iota comparison, converted: the identity matrix. -/
theorem eye_eval (n m : Fin 2048) :
    FloatOps.uitofp (F := Ideal) .f32 (IntOp.cmpi .eq (IntOp.addi (BitVec.ofNat 32 n.val) 0#32) (BitVec.ofNat 32 m.val))
      = eyeAt n m := by
  have hadd : IntOp.addi (BitVec.ofNat 32 n.val) 0#32 = BitVec.ofNat 32 n.val := by
    unfold IntOp.addi; exact BitVec.add_zero _
  rw [hadd]
  unfold eyeAt
  by_cases h : n = m
  · subst h
    rw [if_pos rfl, (IntOp.cmpi_eq).2 rfl]
    show (((1#1 : BitVec 1).toNat : ℝ) : EReal) = 1
    simp
  · rw [if_neg h]
    have hne : ¬ IntOp.cmpi .eq (BitVec.ofNat 32 n.val) (BitVec.ofNat 32 m.val) = 1#1 := by
      rw [IntOp.cmpi_eq]
      intro e
      have e' := congrArg BitVec.toNat e
      simp only [BitVec.toNat_ofNat] at e'
      have hn := n.isLt
      have hm := m.isLt
      exact h (Fin.ext (by omega))
    rw [eq_zero_of_ne_one hne]
    show (((0#1 : BitVec 1).toNat : ℝ) : EReal) = 0
    simp

theorem eye_apply (b : Fin 8) (n m : Fin 2048) : val_main_v7 (F := Ideal) (ix3 b n m) = eyeAt n m := by
  rw [val_main_v7_apply, val_main_v6_apply, val_main_v5_apply, val_main_v4_apply, val_main_v3_apply, val_main_v0_apply,
    val_main_v1_apply, val_main_v2_apply, val_main_c_apply]
  exact eye_eval n m

theorem hat_apply (A : GraphConv.Adj) (b : Fin 8) (n m : Fin 2048) :
    val_main_v8 (F := Ideal) A (ix3 b n m) = A (ix3 b n m) + eyeAt n m := by
  rw [val_main_v8_apply, eye_apply]
  rfl

theorem degree_apply (A : GraphConv.Adj) (b : Fin 8) (n : Fin 2048) :
    val_main_v9 (F := Ideal) A (ix2 b n) = degreeAt A b n := by
  rw [val_main_v9_apply]
  unfold degreeAt
  refine congrArg₂ (· + ·) rfl (Finset.sum_congr rfl fun k _ => ?_)
  have e : idx_main_v9 (ix2 b n) k = ix3 b n k :=
    funext fun a => Fin.ext (by match a with | ⟨0, _⟩ => rfl | ⟨1, _⟩ => rfl | ⟨2, _⟩ => rfl)
  rw [e, hat_apply]

theorem scale_apply (A : GraphConv.Adj) (b : Fin 8) (n : Fin 2048) :
    val_main_v13 (F := Ideal) A (ix2 b n) = scaleAt A b n := by
  rw [val_main_v13_apply, val_main_v12_apply, val_main_call0_v0_apply, val_main_v11_apply, val_main_call0_v1_apply,
    val_main_call0_cst_apply, val_main_call1_v1_apply, val_main_call1_v0_apply, val_main_cst_1_apply, val_main_v10_apply,
    val_main_cst_0_apply, degree_apply]
  rfl

theorem support_apply (A : GraphConv.Adj) (b : Fin 8) (n m : Fin 2048) :
    val_main_v19 (F := Ideal) A (ix3 b n m) = (scaleAt A b n * (A (ix3 b n m) + eyeAt n m)) * scaleAt A b m := by
  rw [val_main_v19_apply, val_main_v16_apply, val_main_v15_apply, val_main_v14_apply, val_main_v18_apply, val_main_v17_apply,
    hat_apply]
  have e1 : idx_main_v14 (idx_main_v15 (ix3 b n m)) = ix2 b n :=
    funext fun a => Fin.ext (by match a with | ⟨0, _⟩ => rfl | ⟨1, _⟩ => rfl)
  have e2 : idx_main_v17 (idx_main_v18 (ix3 b n m)) = ix2 b m :=
    funext fun a => Fin.ext (by match a with | ⟨0, _⟩ => rfl | ⟨1, _⟩ => rfl)
  rw [e1, e2, scale_apply, scale_apply]
  rfl

theorem agg_apply (X : GraphConv.Feat) (A : GraphConv.Adj) (b : Fin 8) (n : Fin 2048) (f : Fin 128) :
    val_main_v20 (F := Ideal) X A (ix3 b n f) = aggAt X A b n f := by
  rw [val_main_v20_apply]
  unfold aggAt
  refine Finset.sum_congr rfl fun k _ => ?_
  have el : lidx_main_v20 (ix3 b n f) k = ix3 b n k :=
    funext fun a => Fin.ext (by match a with | ⟨0, _⟩ => rfl | ⟨1, _⟩ => rfl | ⟨2, _⟩ => rfl)
  have er : ridx_main_v20 (ix3 b n f) k = ix3 b k f :=
    funext fun a => Fin.ext (by match a with | ⟨0, _⟩ => rfl | ⟨1, _⟩ => rfl | ⟨2, _⟩ => rfl)
  rw [el, er, support_apply]

/-- The reference run's result term is `result` of the arguments. -/
theorem result_eq (X : GraphConv.Feat) (A : GraphConv.Adj) (W : GraphConv.Wt) (B : GraphConv.Bias) :
    val_main_v24 (F := Ideal) X A W B = result X A W B := by
  funext i
  obtain ⟨b, n, o, rfl⟩ : ∃ (b : Fin 8) (n : Fin 2048) (o : Fin 128), i = ix3 b n o := ⟨i 0, i 1, i 2, eq_ix3 i⟩
  rw [val_main_v24_apply, val_main_v21_apply, val_main_v23_apply, val_main_v22_apply]
  unfold result
  show _ + _ = _
  refine congrArg₂ (· + ·) (Finset.sum_congr rfl fun f _ => ?_) ?_
  · have el : lidx_main_v21 (ix3 b n o) f = ix3 b n f :=
      funext fun a => Fin.ext (by match a with | ⟨0, _⟩ => rfl | ⟨1, _⟩ => rfl | ⟨2, _⟩ => rfl)
    have er : ridx_main_v21 (ix3 b n o) f = ix2 o f :=
      funext fun a => Fin.ext (by match a with | ⟨0, _⟩ => rfl | ⟨1, _⟩ => rfl)
    rw [el, er, agg_apply]
  · exact congrArg B (funext fun a => Fin.ext (by match a with | ⟨0, _⟩ => rfl))

end Cert.ReferenceIdeal.RefValue

end
-- ==== Proof.DegreeLaw.lean ====
/-
  The real-number facts behind the normalised graph convolution, with no program in sight.

  For a row whose degree is the real number `d` (the row sum of the adjacency plus one, the self-loop), both programs scale by
  `δ(d) = 1/√d` for `d > 0` and `0` otherwise. One program says it with a comparison and a reciprocal square root; the other
  raises `d` to the power `-1/2` and replaces an infinite answer by `0`. On the extended reals the power is Mathlib's real power,
  which is `0` at `d = 0` and `|d|^(-1/2)·cos(-π/2) = 0` for `d < 0`, and is never infinite: the two spellings agree at every real `d`.

  The row identity: for reals, `δₙ·(∑ₘ aₙₘ·(δₘ·xₘ) + δₙ·xₙ) = ∑ₘ ((δₙ·(aₙₘ + [n = m]))·δₘ)·xₘ` — the self-loop term of the
  identity matrix, pulled out of the sum, is the extra summand on the left.
-/
import Idealize.ShloMosaic.PureOps.Ideal
import Idealize.ShloMosaic.PureOps.Ideal.Laws

noncomputable section

namespace Cert.DegreeLaw

open Idealize.ShloMosaic

/-! ## The float constants the two programs spell -/

/-- The pattern of `1.0` denotes `1`. -/
theorem ofBits_one : Ideal.ofBits .f32 0x3F800000#32 = 1 := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of `+inf` denotes `⊤`. -/
theorem ofBits_inf : Ideal.ofBits .f32 0x7F800000#32 = ⊤ := by
  simp [Ideal.ofBits, Ideal.ieee]

/-! ## A real sum, coerced -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The scale of a row of degree `d` -/

/-- `1/√d` for a positive degree, `0` otherwise. -/
def scale (d : ℝ) : ℝ := if 0 < d then (Real.sqrt d)⁻¹ else 0

/-- Mathlib's real power `d ^ (-1/2)` is that scale at EVERY real `d`: the reciprocal root above zero, `0` at zero
    (`0 ^ y = 0` for `y ≠ 0`) and `|d|^(-1/2)·cos(-π/2) = 0` below. -/
theorem rpow_neg_half (d : ℝ) : Real.rpow d (-(1 / 2)) = scale d := by
  unfold scale
  rcases lt_trichotomy 0 d with h | h | h
  · rw [if_pos h]
    show d ^ (-(1 / 2) : ℝ) = _
    rw [Real.rpow_neg h.le, Real.sqrt_eq_rpow]
  · subst h
    rw [if_neg (lt_irrefl _)]
    show (0 : ℝ) ^ (-(1 / 2) : ℝ) = 0
    exact Real.zero_rpow (by norm_num)
  · rw [if_neg (not_lt.2 h.le)]
    show d ^ (-(1 / 2) : ℝ) = 0
    rw [Real.rpow_def_of_neg h]
    have hc : Real.cos (-(1 / 2) * Real.pi) = 0 := by
      rw [show -(1 / 2) * Real.pi = -(Real.pi / 2) by ring, Real.cos_neg, Real.cos_pi_div_two]
    rw [hc, mul_zero]

/-- The comparison-and-reciprocal-root spelling: `d > 0 ? rsqrt d : 0`. -/
theorem select_rsqrt (d : ℝ) :
    Scalar.select (Ideal.cmp .ogt (d : EReal) 0) (Ideal.rsqrt (d : EReal)) (0 : EReal) = ((scale d : ℝ) : EReal) := by
  unfold scale Scalar.select Ideal.cmp
  by_cases h : 0 < d
  · have h' : (0 : EReal) < (d : EReal) := by exact_mod_cast h
    rw [if_pos h]
    simp only [h', decide_true, BitVec.ofBool_true, if_true]
    show (if d < 0 then (⊥ : EReal) else if d = 0 then ⊤ else (((Real.sqrt d)⁻¹ : ℝ) : EReal)) = _
    rw [if_neg (not_lt.2 h.le), if_neg h.ne']
  · have h' : ¬ (0 : EReal) < (d : EReal) := by exact_mod_cast h
    rw [if_neg h]
    simp only [h', decide_false, BitVec.ofBool_false]
    rw [if_neg (by decide)]
    rfl

/-- The power spelling: `p = d ^ (-1/2)`, and `|p| = +∞ ? 0 : p`. The power is a real, so the test never fires. -/
theorem select_pow (d : ℝ) :
    Scalar.select (Ideal.cmp .oeq (max (Ideal.pow (d : EReal) ((-(1 / 2) : ℝ) : EReal)) (-(Ideal.pow (d : EReal) ((-(1 / 2) : ℝ) : EReal)))) ⊤)
      (0 : EReal) (Ideal.pow (d : EReal) ((-(1 / 2) : ℝ) : EReal)) = ((scale d : ℝ) : EReal) := by
  have hp : Ideal.pow (d : EReal) ((-(1 / 2) : ℝ) : EReal) = ((scale d : ℝ) : EReal) := by
    show ((Real.rpow d (-(1 / 2)) : ℝ) : EReal) = _
    rw [rpow_neg_half]
  rw [hp]
  have hne : max ((scale d : ℝ) : EReal) (-((scale d : ℝ) : EReal)) ≠ ⊤ := by
    rcases max_choice ((scale d : ℝ) : EReal) (-((scale d : ℝ) : EReal)) with h | h <;> rw [h]
    · exact EReal.coe_ne_top _
    · rw [← EReal.coe_neg]; exact EReal.coe_ne_top _
  unfold Scalar.select Ideal.cmp
  simp only [hne, decide_false, BitVec.ofBool_false]
  rw [if_neg (by decide)]

/-! ## The row identity -/

/-- Over the reals: scaling the neighbours' sum and the row's own (already scaled) features by `δₙ` is the sum
    against the doubly scaled adjacency with the identity added. -/
theorem row_identity {M : Type*} [Fintype M] [DecidableEq M] (n : M) (a : M → ℝ) (δ : M → ℝ) (x : M → ℝ) :
    δ n * ((∑ m, a m * (δ m * x m)) + δ n * x n)
      = ∑ m, ((δ n * (a m + if n = m then 1 else 0)) * δ m) * x m := by
  have : ∀ m, ((δ n * (a m + if n = m then 1 else 0)) * δ m) * x m
      = δ n * (a m * (δ m * x m)) + (if n = m then δ n * (δ m * x m) else 0) := by
    intro m
    by_cases h : n = m
    · rw [if_pos h, if_pos h]; ring
    · rw [if_neg h, if_neg h]; ring
  rw [Finset.sum_congr rfl fun m _ => this m, Finset.sum_add_distrib, Finset.sum_ite_eq, if_pos (Finset.mem_univ _),
    ← Finset.mul_sum]
  ring

end Cert.DegreeLaw

end
-- ==== Proof.FiniteInputs.lean ====
/-
  What the precondition says: every entry of the features and of the adjacency is a real number.

  The printed predicate is the conjunction of four `all(|v| < +inf)`. An extended real whose absolute value `max v (-v)` is below `⊤`
  is neither infinity, hence a real. (The weights' and the bias's conjuncts are not needed: both programs end with the same sum
  against the weights plus the bias, which is a congruence whatever their entries.)
-/
import proofs.«100926_j22308060135549_2_alg».proof.Pre_finite_inputs
import proofs.«100926_j22308060135549_2_alg».proof.Proof.Gen.Pre_finite_inputs
import proofs.«100926_j22308060135549_2_alg».proof.Proof.DegreeLaw
import Idealize.ShloMosaic.Lib.ReduceAll
import Idealize.ShloMosaic.Lib.ValueIdx

noncomputable section

namespace Cert.Pre_finite_inputs.Finite

open Cert.Pre_finite_inputs Cert.Pre_finite_inputs.Facts Idealize.ShloMosaic

instance : Subsingleton S_.Idx := ⟨fun a b => funext fun d => d.elim0⟩

/-- An extended real with `|v| < +inf` (the float comparison, answering the bit 1) is a real. -/
theorem real_of_abs_lt (v : EReal) (h : Ideal.cmp .olt (max v (-v)) (Ideal.ofBits .f32 0x7F800000#32) = 1#1) : ∃ r : ℝ, v = r := by
  rw [DegreeLaw.ofBits_inf] at h
  have hlt : max v (-v) < ⊤ := by
    by_contra hn
    unfold Ideal.cmp at h
    simp only [hn, decide_false, BitVec.ofBool_false] at h
    exact absurd h (by decide)
  induction v using EReal.rec with
  | bot => simp at hlt
  | coe r => exact ⟨r, rfl⟩
  | top => simp at hlt

/-- Under the precondition the features and the adjacency are real-valued. -/
theorem real_inputs (x : FVec Ideal S8x2048x128 .f32) (a : FVec Ideal S8x2048x2048 .f32) (w : FVec Ideal S128x128 .f32)
    (b : FVec Ideal S128 .f32) (h : fn (F := Ideal) x a w b = fun _ => 1#1) :
    (∀ i, ∃ r : ℝ, x i = r) ∧ (∀ i, ∃ r : ℝ, a i = r) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  refine ⟨fun i => ?_, fun i => ?_⟩
  · exact real_of_abs_lt (x i) (Host.reduce_andi_all _ _ _ _ _ h3 i)
  · exact real_of_abs_lt (a i) (Host.reduce_andi_all _ _ _ _ _ h7 i)

end Cert.Pre_finite_inputs.Finite

end
-- ==== Proof.Bridge.lean ====
/-
  The two results are one function of real-valued arguments.

  Write `a`, `x` for the real adjacency and features. The degree of node `n` of batch `b` is `d = ∑ₖ a b n k + 1` on both sides (the
  identity matrix's row sums to one), and both scales are `δ = 1/√d` for `d > 0`, `0` otherwise (`DegreeLaw`). The reference's
  aggregated feature `∑ₖ ((δₙ·(aₙₖ + [n = k]))·δₖ)·xₖ` is the kernel's `δₙ·(∑ₖ aₙₖ·(δₖ·xₖ) + δₙ·xₙ)` by the row identity over the reals;
  the projection against the weights (the kernel reads them transposed) and the bias are then the same sum on both sides.
-/
import proofs.«100926_j22308060135549_2_alg».proof.Proof.RefValue
import proofs.«100926_j22308060135549_2_alg».proof.Proof.KernelValue
import proofs.«100926_j22308060135549_2_alg».proof.Proof.DegreeLaw

noncomputable section

namespace Cert.Bridge

open Idealize.ShloMosaic Idealize.ShloMosaic.ValueIdx Cert.DegreeLaw
open Cert.ReferenceIdeal Cert.KernelIdeal

/-- The real degree: the adjacency row's sum plus one. -/
def deg (a : (⟨3, ![8, 2048, 2048]⟩ : Shape).Idx → ℝ) (b : Fin 8) (n : Fin 2048) : ℝ := (∑ k : Fin 2048, a (ix3 b n k)) + 1

theorem eye_coe (n k : Fin 2048) : RefValue.eyeAt n k = (((if n = k then 1 else 0 : ℝ)) : EReal) := by
  unfold RefValue.eyeAt
  split <;> simp

/-- The kernel's scale of a real-valued adjacency. -/
theorem kernel_scale (A : GraphConv.Adj) (a : (⟨3, ![8, 2048, 2048]⟩ : Shape).Idx → ℝ) (ha : ∀ i, A i = (a i : EReal))
    (b : Fin 8) (n : Fin 2048) : GraphConv.scaleAt A b n = ((scale (deg a b n) : ℝ) : EReal) := by
  have hd : GraphConv.degreeAt A b n = ((deg a b n : ℝ) : EReal) := by
    unfold GraphConv.degreeAt deg
    rw [ofBits_one, EReal.coe_add, coe_sum, EReal.coe_one]
    exact congrArg₂ (· + ·) (Finset.sum_congr rfl fun k _ => ha _) rfl
  unfold GraphConv.scaleAt
  rw [hd, Ideal.ofBits_zero_f32]
  exact select_rsqrt _

/-- The reference's scale of a real-valued adjacency: the same. -/
theorem ref_scale (A : GraphConv.Adj) (a : (⟨3, ![8, 2048, 2048]⟩ : Shape).Idx → ℝ) (ha : ∀ i, A i = (a i : EReal))
    (b : Fin 8) (n : Fin 2048) : RefValue.scaleAt A b n = ((scale (deg a b n) : ℝ) : EReal) := by
  have hone : (∑ k : Fin 2048, (if n = k then (1 : ℝ) else 0)) = 1 := by simp
  have hd : RefValue.degreeAt A b n = ((deg a b n : ℝ) : EReal) := by
    unfold RefValue.degreeAt deg
    rw [Ideal.ofBits_zero_f32, zero_add]
    have hs : (∑ k : Fin 2048, (A (ix3 b n k) + RefValue.eyeAt n k))
        = ∑ k : Fin 2048, (((a (ix3 b n k) + if n = k then 1 else 0 : ℝ)) : EReal) :=
      Finset.sum_congr rfl fun k _ => by rw [ha, eye_coe, EReal.coe_add]
    rw [hs, ← coe_sum, Finset.sum_add_distrib, hone]
  unfold RefValue.scaleAt RefValue.powAt
  rw [hd, ofBits_neg_half, ofBits_inf, Ideal.ofBits_zero_f32]
  exact select_pow _

/-- THE BRIDGE: on real-valued features and adjacency the reference's result is the kernel's. -/
theorem result_eq (X : GraphConv.Feat) (A : GraphConv.Adj) (W : GraphConv.Wt) (B : GraphConv.Bias)
    (hX : ∀ i, ∃ r : ℝ, X i = r) (hA : ∀ i, ∃ r : ℝ, A i = r) :
    RefValue.result X A W B = ResultValue.result X A W B := by
  choose a ha using hA
  choose x hx using hX
  funext i
  obtain ⟨b, n, o, rfl⟩ : ∃ (b : Fin 8) (n : Fin 2048) (o : Fin 128), i = ix3 b n o := ⟨i 0, i 1, i 2, eq_ix3 i⟩
  unfold RefValue.result ResultValue.result GraphConv.conv
  refine congrArg₂ (· + ·) (Finset.sum_congr rfl fun f _ => congrArg₂ (· * ·) ?_ rfl) rfl
  show RefValue.aggAt X A b n f = GraphConv.scaleAt A b n
      * ((∑ k : Fin 2048, A (ix3 b n k) * (GraphConv.scaleAt A b k * X (ix3 b k f))) + GraphConv.scaleAt A b n * X (ix3 b n f))
  have hxs : ∀ k : Fin 2048, GraphConv.scaleAt A b k * X (ix3 b k f) = (((scale (deg a b k)) * x (ix3 b k f) : ℝ) : EReal) := fun k => by
    rw [kernel_scale A a ha, hx, EReal.coe_mul]
  have hsum : (∑ k : Fin 2048, A (ix3 b n k) * (GraphConv.scaleAt A b k * X (ix3 b k f)))
      = ((∑ k : Fin 2048, a (ix3 b n k) * (scale (deg a b k) * x (ix3 b k f)) : ℝ) : EReal) := by
    rw [coe_sum]
    exact Finset.sum_congr rfl fun k _ => by rw [ha, hxs k]; exact (EReal.coe_mul _ _).symm
  have hagg : RefValue.aggAt X A b n f
      = ((∑ k : Fin 2048, ((scale (deg a b n) * (a (ix3 b n k) + if n = k then 1 else 0)) * scale (deg a b k)) * x (ix3 b k f) : ℝ) : EReal) := by
    unfold RefValue.aggAt
    rw [coe_sum]
    exact Finset.sum_congr rfl fun k _ => by
      rw [ref_scale A a ha b n, ref_scale A a ha b k, ha, hx, eye_coe, EReal.coe_mul, EReal.coe_mul, EReal.coe_mul, EReal.coe_add]
  rw [hagg, hsum, hxs n, kernel_scale A a ha b n, ← EReal.coe_add, ← EReal.coe_mul]
  exact congrArg _ (row_identity n (fun k => a (ix3 b n k)) (fun k => scale (deg a b k)) (fun k => x (ix3 b k f))).symm

end Cert.Bridge

end
-- ==== Proof.lean ====
/-
  A dense graph convolution with symmetric degree normalisation, as two tiled kernel launches, against its array-level reference.

  Both compute, for a batch of 8 graphs on 2048 nodes with 128 features, `out = (D^(-1/2) (A + I) D^(-1/2) X) Wᵀ + bias`, where `D`
  is the diagonal of the row sums of `A + I`. The kernel never forms `A + I`: its first launch computes each node's degree
  `d = ∑ₘ A n m + 1`, the scale `δ = 1/√d` where `d > 0` and `0` elsewhere, and the scaled features `δ·X`; its second launch computes
  `δₙ·(∑ₘ A n m · (δ X) m + (δ X) n)` and projects by the transposed weights. The reference forms `A + I`, takes `d ^ (-1/2)` with
  infinities replaced by `0`, and contracts the doubly scaled matrix with `X`.

  At the extended reals the two scales agree at every real degree (the real power is `0` at `d = 0` and `|d|^(-1/2) cos(-π/2) = 0` below),
  and the two aggregations agree by distributivity, which is where the precondition (finite features and adjacency) is used.
  The modules: `DegreeLaw` (the real-number facts), `Spec` (the whole-array functions), `LibColumnLayout` (a column cast and a
  column broadcast read at an index), `Payloads` (each body's arithmetic at an element), `Region0` / `Region1` (each launch's output arrays), `KernelRun` / `KernelValue` (the kernel's run and result),
  `RefValue` (the reference's result), `FiniteInputs` (the precondition read), `Bridge` (the two results are one function).
  The idealization rewrote no operation, so `preserves` is `True`.
-/
import proofs.«100926_j22308060135549_2_alg».proof.Defs
import proofs.«100926_j22308060135549_2_alg».proof.Proof.Gen.Kernel
import proofs.«100926_j22308060135549_2_alg».proof.Proof.Gen.Kernel.Skeleton
import proofs.«100926_j22308060135549_2_alg».proof.Proof.Gen.Kernel.Launch
import proofs.«100926_j22308060135549_2_alg».proof.Proof.Gen.Kernel.Points
import proofs.«100926_j22308060135549_2_alg».proof.Proof.Gen.Kernel.Frame
import proofs.«100926_j22308060135549_2_alg».proof.Proof.Gen.KernelIdeal
import proofs.«100926_j22308060135549_2_alg».proof.Proof.Gen.KernelIdeal.Skeleton
import proofs.«100926_j22308060135549_2_alg».proof.Proof.Gen.KernelIdeal.Launch
import proofs.«100926_j22308060135549_2_alg».proof.Proof.Gen.KernelIdeal.Points
import proofs.«100926_j22308060135549_2_alg».proof.Proof.Gen.KernelIdeal.Frame
import proofs.«100926_j22308060135549_2_alg».proof.Proof.Gen.ReferenceIdeal
import proofs.«100926_j22308060135549_2_alg».proof.Proof.Gen.ReferenceIdeal.Run
import proofs.«100926_j22308060135549_2_alg».proof.Proof.Gen.ReferenceIdeal.Read
import proofs.«100926_j22308060135549_2_alg».proof.Proof.Gen.Pre_finite_inputs
import proofs.«100926_j22308060135549_2_alg».proof.Proof.KernelRun
import proofs.«100926_j22308060135549_2_alg».proof.Proof.KernelValue
import proofs.«100926_j22308060135549_2_alg».proof.Proof.RefValue
import proofs.«100926_j22308060135549_2_alg».proof.Proof.FiniteInputs
import proofs.«100926_j22308060135549_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, finite by the precondition, both programs end with the same result array. -/
theorem algebraic : Cert.algebraic_KernelIdeal_ReferenceIdeal := by
  intro m ρ m' ρ' hpre hagree
  refine ⟨fun c => Cert.KernelIdeal.ResultValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.final m ρ c), (h c).2⟩)
      (Cert.KernelIdeal.RunOut.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v24_eq _ _ _ _).trans ?_
    refine (Cert.ReferenceIdeal.RefValue.result_eq _ _ _ _).trans ?_
    rw [(hagree c).1, (hagree c).2.1, (hagree c).2.2.1, (hagree c).2.2.2]
    obtain ⟨hX, hA⟩ := Cert.Pre_finite_inputs.Finite.real_inputs _ _ _ _ (hpre c)
    exact Cert.Bridge.result_eq _ _ _ _ hX hA

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
